-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x131072x128 : Shape := ⟨3, ![2, 131072, 128]⟩
abbrev S131072x128 : Shape := ⟨2, ![131072, 128]⟩
abbrev S128x128 : Shape := ⟨2, ![128, 128]⟩
abbrev S_ : Shape := ⟨0, ![]⟩

class Facts : Prop where
  bcast_S_S2x131072x128 : S_.BroadcastsInDim S2x131072x128 (![] : Fin 0 → Fin S2x131072x128.rank)
  reducesTo_S2x131072x128_S_d0_1_2 : S2x131072x128.ReducesTo [0, 1, 2] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128x128 .f32) (main_arg9 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x131072x128 .f32) (main_arg1 : FVec F S131072x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) : IVec S_ 1 :=
  let main_v0 : FVec F S2x131072x128 .f32 := Host.absf main_arg0
  let main_cst : FVec F S_ .f32 := constant S_ .f32 0x7F800000#32
  let main_v1 : FVec F S2x131072x128 .f32 := broadcastInDim S2x131072x128 ![] bcast_S_S2x131072x128 main_cst
  let main_v2 : IVec S2x131072x128 1 := cmpf .olt main_v0 main_v1
  let main_c : IVec S_ 1 := constantI S_ 1 1#1
  let main_v3 : IVec S_ 1 := (fun x v => Host.reduce IntOp.andi x v reducesTo_S2x131072x128_S_d0_1_2 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S2x131072x128 : Shape := ⟨3, ![2, 131072, 128]⟩
abbrev S131072x128 : Shape := ⟨2, ![131072, 128]⟩
abbrev S128x128 : Shape := ⟨2, ![128, 128]⟩
abbrev S128x512 : Shape := ⟨2, ![128, 512]⟩
abbrev S2x4096x128 : Shape := ⟨3, ![2, 4096, 128]⟩
abbrev S4096x128 : Shape := ⟨2, ![4096, 128]⟩
abbrev S1x4096x128 : Shape := ⟨3, ![1, 4096, 128]⟩
abbrev S4096x512 : Shape := ⟨2, ![4096, 512]⟩
abbrev S4096x384 : Shape := ⟨2, ![4096, 384]⟩

abbrev nBuf : Space → Nat
  | .hbm => 15
  | .vmem => 8
  | .smem => 0
  | _ => 0

abbrev bufTy : (tb : Table) → Fin (tcTables nBuf tb) → BufTy
  | .hbm, ⟨0, _⟩ => ⟨S2x131072x128, .f32⟩
  | .hbm, ⟨1, _⟩ => ⟨S131072x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x512, .f32⟩
  | .hbm, ⟨11, _⟩ => ⟨S128x512, .bf16⟩
  | .hbm, ⟨12, _⟩ => ⟨S128x512, .f32⟩
  | .hbm, ⟨13, _⟩ => ⟨S128x512, .bf16⟩
  | .hbm, ⟨14, _⟩ => ⟨S2x131072x128, .f32⟩
  | .local _ .vmem, ⟨0, _⟩ => ⟨S2x4096x128, .f32⟩
  | .local _ .vmem, ⟨1, _⟩ => ⟨S2x4096x128, .f32⟩
  | .local _ .vmem, ⟨2, _⟩ => ⟨S4096x128, .f32⟩
  | .local _ .vmem, ⟨3, _⟩ => ⟨S4096x128, .f32⟩
  | .local _ .vmem, ⟨4, _⟩ => ⟨S128x512, .bf16⟩
  | .local _ .vmem, ⟨5, _⟩ => ⟨S128x512, .bf16⟩
  | .local _ .vmem, ⟨6, _⟩ => ⟨S2x4096x128, .f32⟩
  | .local _ .vmem, ⟨7, _⟩ => ⟨S2x4096x128, .f32⟩
  | _, _ => ⟨S2x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S128x128_S128x128_S128x128_S128x128_S128x512_d1 : Shape.Concatenates [S128x128, S128x128, S128x128, S128x128] S128x512 1
  bitsLt_bf16_f32 : FTy.bits .bf16 < FTy.bits .f32
  inb_S2x4096x128_S1x4096x128_0_0_0 : ∀ a, (![0, 0, 0] : Fin 3 → Nat) a + S1x4096x128.size a ≤ S2x4096x128.size a
  h_S1x4096x128 : 0 < S1x4096x128.numel
  shapeCasts_S1x4096x128_S4096x128 : S1x4096x128.ShapeCasts S4096x128
  inb_S2x4096x128_S1x4096x128_1_0_0 : ∀ a, (![1, 0, 0] : Fin 3 → Nat) a + S1x4096x128.size a ≤ S2x4096x128.size a
  inb_S4096x128_S4096x128_0_0 : ∀ a, (![0, 0] : Fin 2 → Nat) a + S4096x128.size a ≤ S4096x128.size a
  h_S4096x128 : 0 < S4096x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S4096x512_o0_0_S4096x384 : S4096x512.Slices ![0, 0] S4096x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  slices_S4096x512_o0_384_S4096x128 : S4096x512.Slices ![0, 384] S4096x128
  shapeCasts_S4096x128_S1x4096x128 : S4096x128.ShapeCasts S1x4096x128
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x128.size a ≤ S2x131072x128.size a
  hwx0_0 : ∀ i : grid0.Coords, EltTy.bits .f32 = 32 ∨ (Rect.block (s := S2x131072x128) S2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x4096x128.size a ≤ S2x131072x128.size a
  hwx0_4 : ∀ i : grid0.Coords, EltTy.bits .f32 = 32 ∨ (Rect.block (s := S2x131072x128) S2x4096x128.size (cc0_transform_4 i) (hinb0_4 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x131072x128 : Shape := ⟨3, ![2, 131072, 128]⟩
abbrev S131072x128 : Shape := ⟨2, ![131072, 128]⟩
abbrev S128x128 : Shape := ⟨2, ![128, 128]⟩
abbrev S1x131072x128 : Shape := ⟨3, ![1, 131072, 128]⟩
abbrev S128x512 : Shape := ⟨2, ![128, 512]⟩
abbrev S131072x512 : Shape := ⟨2, ![131072, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S2x131072x128, .f32⟩
  | .hbm, ⟨1, _⟩ => ⟨S131072x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x131072x128, .f32⟩
  | .hbm, ⟨11, _⟩ => ⟨S131072x128, .f32⟩
  | .hbm, ⟨12, _⟩ => ⟨S1x131072x128, .f32⟩
  | .hbm, ⟨13, _⟩ => ⟨S131072x128, .f32⟩
  | .hbm, ⟨14, _⟩ => ⟨S128x512, .f32⟩
  | .hbm, ⟨15, _⟩ => ⟨S128x512, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S_, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072x128, .f32⟩
  | .hbm, ⟨43, _⟩ => ⟨S131072x128, .f32⟩
  | .hbm, ⟨44, _⟩ => ⟨S_, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S1x131072x128, .f32⟩
  | .hbm, ⟨54, _⟩ => ⟨S1x131072x128, .f32⟩
  | .hbm, ⟨55, _⟩ => ⟨S2x131072x128, .f32⟩
  | _, _ => ⟨S2x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  slices_S2x131072x128_S1x131072x128_0_0_0 : S2x131072x128.Slices ![0, 0, 0] S1x131072x128
  shapeCasts_S1x131072x128_S131072x128 : S1x131072x128.ShapeCasts S131072x128
  slices_S2x131072x128_S1x131072x128_1_0_0 : S2x131072x128.Slices ![1, 0, 0] S1x131072x128
  concatenates_S128x128_S128x128_S128x128_S128x128_S128x512_d1 : Shape.Concatenates [S128x128, S128x128, S128x128, S128x128] S128x512 1
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  bcast_S131072x128_S1x131072x128_1_2 : S131072x128.BroadcastsInDim S1x131072x128 (![1, 2] : Fin 2 → Fin S1x131072x128.rank)
  concatenates_S1x131072x128_S1x131072x128_S2x131072x128_d0 : Shape.Concatenates [S1x131072x128, S1x131072x128] S2x131072x128 0
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.FrameBits.lean ====
/-
  The run of the kernel's program as printed, word for word, from launch to return, and what it leaves in memory.

  The program first lays the four input-side weight matrices side by side into one `128 × 512` matrix and the four
  recurrent ones into another, narrows both, and then sweeps the batch in 32 blocks of 4096 rows. At block `t` the body
  is handed rows `4096·t … 4096·t + 4095` of both slabs of the state and of the input, and the two whole weight matrices;
  it computes from these alone and writes both slabs of its output block. Nothing else is written: the weight matrices
  are fetched once and stay where they are, every input block is read only, and what the output block held before is
  never used (it is read once before each slab is overwritten, and the value read is dropped).

  So the run terminates without a fault, every argument array ends as it was launched, and the result array ends as the
  blocks the body wrote, one per grid point. The block written at point `t` is `outBlock` of the four input blocks at `t`:
  the two stored values laid over the two slabs, which together cover the block.
-/
import proofs.«167001_j5471788335349_2_alg».proof.Proof.Gen.Kernel.Launch
import proofs.«167001_j5471788335349_2_alg».proof.Proof.Gen.Kernel.Skeleton
import proofs.«167001_j5471788335349_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the sweep -/

/-- What core `c`'s buffers hold when the sweep starts: the launch contents after the four preparing operations. -/
abbrev atEntry (c : Dev nD) (b : Ref sig .tc) : Buf (Elt F) ((c : Thread nD τ).loc b) :=
  StableHlo.after hostOps0 (fun b => m (c, b)) b

/-- None of the preparing operations allocates. -/
theorem prep_fresh : (hostOps0 : List (HloOp τ sig (Elt F))).Forall fun op => op.fresh = ∅ := by
  simp only [List.Forall]; repeat' constructor

/-- The program is the preparing operations followed by the sweep. -/
theorem prefix_then_sweep (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prep_fresh main_chain

/-- A buffer that is none of the four the preparing operations write is found as launched. -/
theorem atEntry_kept (c : Dev nD) (b : Ref sig .tc) (h0 : b ≠ main_v0) (h1 : b ≠ main_v1) (h2 : b ≠ main_v2) (h3 : b ≠ main_v3) :
    atEntry m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1, StableHlo.devRef_ne_of_ne h2, StableHlo.devRef_ne_of_ne h3⟩))

/-! ## The blocks the body is handed -/

/-- Window `w`'s block at grid point `t`, read off its array as the sweep finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's buffer holds its block at every point — also at a point where nothing was fetched, since then the
    block's position has not moved and the body left the buffer as it found it. One statement per input window. -/
theorem held0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes -/

/-- Slab 0 and slab 1 of a `2 × 4096 × 128` block, the whole of a `4096 × 128` block, the whole of a weight matrix. -/
abbrev slab0 : Rect S2x4096x128 := Rect.unit (s := S2x4096x128) ![0, 0, 0] S1x4096x128.size inb_S2x4096x128_S1x4096x128_0_0_0
abbrev slab1 : Rect S2x4096x128 := Rect.unit (s := S2x4096x128) ![1, 0, 0] S1x4096x128.size inb_S2x4096x128_S1x4096x128_1_0_0
abbrev rows : Rect S4096x128 := Rect.unit (s := S4096x128) ![0, 0] S4096x128.size inb_S4096x128_S4096x128_0_0
abbrev weights : Rect S128x512 := Rect.unit (s := S128x512) ![0, 0] S128x512.size inb_S128x512_S128x512_0_0

/-- The output block after the body, from the four input blocks: the second stored value over slab 1 and the first over
    slab 0, the later store listed first. -/
def outBlock (x0 : Vec F S2x4096x128 .f32) (x1 : Vec F S4096x128 .f32) (x2 x3 : Vec F S128x512 .bf16) : Vec F S2x4096x128 .f32 :=
  View.canon [⟨slab1, k0_pay5 (View.ld x0 slab0) (View.ld x0 slab1) (View.ld x1 rows) (View.ld x2 weights) (View.ld x3 weights)⟩,
    ⟨slab0, k0_pay4 (View.ld x0 slab0) (View.ld x0 slab1) (View.ld x1 rows) (View.ld x2 weights) (View.ld x3 weights)⟩]

/-- The two slabs tile the block, so every entry lies in one of them. -/
theorem slabs_cover (p1 p0 : Vec F S1x4096x128 .f32) (y : S2x4096x128.Idx) :
    ∃ pc ∈ ([⟨slab1, p1⟩, ⟨slab0, p0⟩] : List (View.Piece (Elt F) S2x4096x128 .f32)), y ∈ pc.1.set :=
  View.cover_of_tiled [⟨slab1, p1⟩, ⟨slab0, p0⟩] S1x4096x128.size (by rfl) y

/-! ## The body, once -/

set_option maxHeartbeats 1000000 in
/-- On whole buffers — the four inputs' at contents `x0 … x3`, the output's at anything — the body runs to its end,
    leaves the inputs' as they were and the output's at `outBlock` of them. -/
theorem body_runs (c : Dev nD) (E : Set ℕ) (i : grid0.Coords)
    (arg1 : Memref sig .tc .vmem S2x4096x128 .f32) (harg1 : arg1.IsWhole) (arg2 : Memref sig .tc .vmem S4096x128 .f32) (harg2 : arg2.IsWhole)
    (arg3 : Memref sig .tc .vmem S128x512 .bf16) (harg3 : arg3.IsWhole) (arg4 : Memref sig .tc .vmem S128x512 .bf16) (harg4 : arg4.IsWhole)
    (arg5 : Memref sig .tc .vmem S2x4096x128 .f32) (harg5 : arg5.IsWhole)
    (x0 : Vec F S2x4096x128 .f32) (x1 : Vec F S4096x128 .f32) (x2 x3 : Vec F S128x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__lstm_kernel i arg1 harg1 arg2 harg2 arg3 harg3 arg4 harg4 arg5 harg5) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (slabs_cover _ _)

/-! ## The sweep's bookkeeping -/

/-- Per core: the arrays as the sweep finds them; after the body at point `t` every input buffer still at its block and
    the output buffer at `outBlock` of the input blocks; nothing kept between points beyond what the sweep itself keeps. -/
def sweep (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlock (blockAt m c 0 t) (blockAt m c 1 t) (blockAt m c 2 t) (blockAt m c 3 t)
  Φ _ := Pipeline.ΦA spec0 c
  q _ := fullShare
  owed _ := 0

theorem sweep_A (c : Dev nD) (w : Fin cfg0.W) : (sweep m 0 c).A w = atEntry m c (Pipeline.arrRef spec0 w) := by
  dsimp only [sweep]

theorem after_0 (c : Dev nD) (t : Fin cfg0.N) : (sweep m 0 c).after 0 t = blockAt m c 0 t := by dsimp only [sweep]
theorem after_1 (c : Dev nD) (t : Fin cfg0.N) : (sweep m 0 c).after 1 t = blockAt m c 1 t := by dsimp only [sweep]
theorem after_2 (c : Dev nD) (t : Fin cfg0.N) : (sweep m 0 c).after 2 t = blockAt m c 2 t := by dsimp only [sweep]
theorem after_3 (c : Dev nD) (t : Fin cfg0.N) : (sweep m 0 c).after 3 t = blockAt m c 3 t := by dsimp only [sweep]
theorem after_4 (c : Dev nD) (t : Fin cfg0.N) :
    (sweep m 0 c).after 4 t = outBlock (blockAt m c 0 t) (blockAt m c 1 t) (blockAt m c 2 t) (blockAt m c 3 t) := by dsimp only [sweep]

theorem before_0 (c : Dev nD) (t : Fin cfg0.N) (d) : (sweep m 0 c).before 0 t d = blockAt m c 0 t :=
  held0 m (sweep m 0 c) (sweep_A m c 0) (after_0 m c) t d
theorem before_1 (c : Dev nD) (t : Fin cfg0.N) (d) : (sweep m 0 c).before 1 t d = blockAt m c 1 t :=
  held1 m (sweep m 0 c) (sweep_A m c 1) (after_1 m c) t d
theorem before_2 (c : Dev nD) (t : Fin cfg0.N) (d) : (sweep m 0 c).before 2 t d = blockAt m c 2 t :=
  held2 m (sweep m 0 c) (sweep_A m c 2) (after_2 m c) t d
theorem before_3 (c : Dev nD) (t : Fin cfg0.N) (d) : (sweep m 0 c).before 3 t d = blockAt m c 3 t :=
  held3 m (sweep m 0 c) (sweep_A m c 3) (after_3 m c) t d

/-! ## The body at a grid point -/

/-- What the body is handed at point `t`, window by window, -/
def handed (c : Dev nD) (t : Fin cfg0.N) : sProp 𝕄 :=
  iprop((sweep m 0 c).Φ t.castSucc ∗ (sweep m 0 c).owesAt () t.castSucc
    ∗ (∃ d, owns (c : Thread nD τ) (st0_0 t) fullShare ((sweep m 0 c).before 0 t d))
    ∗ (∃ d, owns (c : Thread nD τ) (st0_1 t) fullShare ((sweep m 0 c).before 1 t d))
    ∗ (∃ d, owns (c : Thread nD τ) (st0_2 t) fullShare ((sweep m 0 c).before 2 t d))
    ∗ (∃ d, owns (c : Thread nD τ) (st0_3 t) fullShare ((sweep m 0 c).before 3 t d))
    ∗ (∃ d, owns (c : Thread nD τ) (st0_4 t) fullShare ((sweep m 0 c).before 4 t d)))

/-- and what it hands back. -/
def handedBack (c : Dev nD) (t : Fin cfg0.N) : sProp 𝕄 :=
  iprop((sweep m 0 c).Φ t.succ ∗ (sweep m 0 c).owesAt () t.succ
    ∗ owns (c : Thread nD τ) (st0_0 t) fullShare ((sweep m 0 c).after 0 t)
    ∗ owns (c : Thread nD τ) (st0_1 t) fullShare ((sweep m 0 c).after 1 t)
    ∗ owns (c : Thread nD τ) (st0_2 t) fullShare ((sweep m 0 c).after 2 t)
    ∗ owns (c : Thread nD τ) (st0_3 t) fullShare ((sweep m 0 c).after 3 t)
    ∗ owns (c : Thread nD τ) (st0_4 t) fullShare ((sweep m 0 c).after 4 t))

/-- At any point the input buffers hold their blocks, so the body runs as `body_runs` says; what the sweep keeps between
    points passes through untouched. -/
theorem body_at_point (c : Dev nD) (t : Fin cfg0.N) :
    handed m c t ⊢ wp frame (wpE (defs₀ (F := F)) Variants.none c none) Set.univ (bodyAt0 t) (fun _ => handedBack m c t) := by
  unfold handed handedBack bodyAt0
  simp only [before_0, before_1, before_2, before_3]
  rw [show (sweep m 0 c).Φ t.succ = (sweep m 0 c).Φ t.castSucc from rfl,
    show (sweep m 0 c).owesAt () t.succ = (sweep m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_runs c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The same at every point, in the form the sweep asks for. -/
theorem body_everywhere (c : Dev nD) : BodyObligation (sweep (F := F) m 0 c) (defs₀ (F := F)) Variants.none () Set.univ := fun t => by
  rw [bigSep_W0, bigSep_W0]
  exact body_at_point m c t

/-! ## The whole run -/

set_option backward.isDefEq.respectTransparency.types false in
/-- From any memory with all counters at zero, every fair execution of the program terminates without a fault; at the end
    each array the sweep stages holds what the sweep's bookkeeping computes for it, and every other buffer outside the
    core's scratch holds what the sweep found. -/
theorem whole_run : θ_run defs (onTc (τ := τ) (main (F := F))) (s₀ m ρ) (Pipeline.FramePost cfgs (sweep m) 0 (atEntry m)) :=
  Pipeline.θ_run_frame cfgs (sweep m) (0 : Fin 1) launch0 defs₀ Variants.none m ρ main
    (hbody := fun c => (body_everywhere m c).loose) (hshare := fun c => (sweep m 0 c).share_full fun _ => rfl)
    (howed := fun _ _ => rfl) (V := atEntry m) (hmain := prefix_then_sweep m Variants.none) (hA := sweep_A m) (hΦ := fun _ _ => rfl)

/-- Every argument array ends as launched: the state and the input are staged read-only, so they end as the sweep found
    them; the eight weight matrices are not staged at all; and the preparing operations write none of the ten. -/
theorem args_of_post (r : PUnit × MemSt nD τ sig (Elt F)) (h : Pipeline.FramePost cfgs (sweep m) 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
    ⟨((h c).1 0).trans (((sweep m 0 c).arrAt_in 0 rfl _).trans ((sweep_A m c 0).trans (atEntry_kept m c main_arg0 (by decide) (by decide) (by decide) (by decide)))),
     ((h c).1 1).trans (((sweep m 0 c).arrAt_in 1 rfl _).trans ((sweep_A m c 1).trans (atEntry_kept m c main_arg1 (by decide) (by decide) (by decide) (by decide)))),
     ((h c).2 main_arg2 (Pipeline.mem_restRefs_of main_arg2 (by decide) (by decide))).trans (atEntry_kept m c main_arg2 (by decide) (by decide) (by decide) (by decide)),
     ((h c).2 main_arg3 (Pipeline.mem_restRefs_of main_arg3 (by decide) (by decide))).trans (atEntry_kept m c main_arg3 (by decide) (by decide) (by decide) (by decide)),
     ((h c).2 main_arg4 (Pipeline.mem_restRefs_of main_arg4 (by decide) (by decide))).trans (atEntry_kept m c main_arg4 (by decide) (by decide) (by decide) (by decide)),
     ((h c).2 main_arg5 (Pipeline.mem_restRefs_of main_arg5 (by decide) (by decide))).trans (atEntry_kept m c main_arg5 (by decide) (by decide) (by decide) (by decide)),
     ((h c).2 main_arg6 (Pipeline.mem_restRefs_of main_arg6 (by decide) (by decide))).trans (atEntry_kept m c main_arg6 (by decide) (by decide) (by decide) (by decide)),
     ((h c).2 main_arg7 (Pipeline.mem_restRefs_of main_arg7 (by decide) (by decide))).trans (atEntry_kept m c main_arg7 (by decide) (by decide) (by decide) (by decide)),
     ((h c).2 main_arg8 (Pipeline.mem_restRefs_of main_arg8 (by decide) (by decide))).trans (atEntry_kept m c main_arg8 (by decide) (by decide) (by decide) (by decide)),
     ((h c).2 main_arg9 (Pipeline.mem_restRefs_of main_arg9 (by decide) (by decide))).trans (atEntry_kept m c main_arg9 (by decide) (by decide) (by decide) (by decide))⟩

/-- The same as a statement about the run. -/
theorem args_unchanged (h : θ_run defs (onTc (τ := τ) (main (F := F))) (s₀ m ρ) (Pipeline.FramePost cfgs (sweep m) 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_of_post m r h c) h

/-- The program runs to its end, faults nowhere, and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  args_unchanged m ρ (whole_run m ρ)

end Cert.Kernel.FrameRun

end
-- ==== Proof.FrameIdeal.lean ====
/-
  The run of the idealized kernel's program from launch to return, and what it leaves in memory.

  The program first lays the four input-side weight matrices side by side into one `128 × 512` matrix and the four
  recurrent ones into another, narrows both, and then sweeps the batch in 32 blocks of 4096 rows. At block `t` the body
  is handed rows `4096·t … 4096·t + 4095` of both slabs of the state and of the input, and the two whole weight matrices;
  it computes from these alone and writes both slabs of its output block. Nothing else is written: the weight matrices
  are fetched once and stay where they are, every input block is read only, and what the output block held before is
  never used (it is read once before each slab is overwritten, and the value read is dropped).

  So the run terminates without a fault, every argument array ends as it was launched, and the result array ends as the
  blocks the body wrote, one per grid point. The block written at point `t` is `outBlock` of the four input blocks at `t`:
  the two stored values laid over the two slabs, which together cover the block.
-/
import proofs.«167001_j5471788335349_2_alg».proof.Proof.Gen.KernelIdeal.Launch
import proofs.«167001_j5471788335349_2_alg».proof.Proof.Gen.KernelIdeal.Skeleton
import proofs.«167001_j5471788335349_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.FrameRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the sweep -/

/-- What core `c`'s buffers hold when the sweep starts: the launch contents after the four preparing operations. -/
abbrev atEntry (c : Dev nD) (b : Ref sig .tc) : Buf (Elt F) ((c : Thread nD τ).loc b) :=
  StableHlo.after hostOps0 (fun b => m (c, b)) b

/-- None of the preparing operations allocates. -/
theorem prep_fresh : (hostOps0 : List (HloOp τ sig (Elt F))).Forall fun op => op.fresh = ∅ := by
  simp only [List.Forall]; repeat' constructor

/-- The program is the preparing operations followed by the sweep. -/
theorem prefix_then_sweep (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prep_fresh main_chain

/-- A buffer that is none of the four the preparing operations write is found as launched. -/
theorem atEntry_kept (c : Dev nD) (b : Ref sig .tc) (h0 : b ≠ main_v0) (h1 : b ≠ main_v1) (h2 : b ≠ main_v2) (h3 : b ≠ main_v3) :
    atEntry m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1, StableHlo.devRef_ne_of_ne h2, StableHlo.devRef_ne_of_ne h3⟩))

/-! ## The blocks the body is handed -/

/-- Window `w`'s block at grid point `t`, read off its array as the sweep finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's buffer holds its block at every point — also at a point where nothing was fetched, since then the
    block's position has not moved and the body left the buffer as it found it. One statement per input window. -/
theorem held0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes -/

/-- Slab 0 and slab 1 of a `2 × 4096 × 128` block, the whole of a `4096 × 128` block, the whole of a weight matrix. -/
abbrev slab0 : Rect S2x4096x128 := Rect.unit (s := S2x4096x128) ![0, 0, 0] S1x4096x128.size inb_S2x4096x128_S1x4096x128_0_0_0
abbrev slab1 : Rect S2x4096x128 := Rect.unit (s := S2x4096x128) ![1, 0, 0] S1x4096x128.size inb_S2x4096x128_S1x4096x128_1_0_0
abbrev rows : Rect S4096x128 := Rect.unit (s := S4096x128) ![0, 0] S4096x128.size inb_S4096x128_S4096x128_0_0
abbrev weights : Rect S128x512 := Rect.unit (s := S128x512) ![0, 0] S128x512.size inb_S128x512_S128x512_0_0

/-- The output block after the body, from the four input blocks: the second stored value over slab 1 and the first over
    slab 0, the later store listed first. -/
def outBlock (x0 : Vec F S2x4096x128 .f32) (x1 : Vec F S4096x128 .f32) (x2 x3 : Vec F S128x512 .bf16) : Vec F S2x4096x128 .f32 :=
  View.canon [⟨slab1, k0_pay5 (View.ld x0 slab0) (View.ld x0 slab1) (View.ld x1 rows) (View.ld x2 weights) (View.ld x3 weights)⟩,
    ⟨slab0, k0_pay4 (View.ld x0 slab0) (View.ld x0 slab1) (View.ld x1 rows) (View.ld x2 weights) (View.ld x3 weights)⟩]

/-- The two slabs tile the block, so every entry lies in one of them. -/
theorem slabs_cover (p1 p0 : Vec F S1x4096x128 .f32) (y : S2x4096x128.Idx) :
    ∃ pc ∈ ([⟨slab1, p1⟩, ⟨slab0, p0⟩] : List (View.Piece (Elt F) S2x4096x128 .f32)), y ∈ pc.1.set :=
  View.cover_of_tiled [⟨slab1, p1⟩, ⟨slab0, p0⟩] S1x4096x128.size (by rfl) y

/-! ## The body, once -/

set_option maxHeartbeats 1000000 in
/-- On whole buffers — the four inputs' at contents `x0 … x3`, the output's at anything — the body runs to its end,
    leaves the inputs' as they were and the output's at `outBlock` of them. -/
theorem body_runs (c : Dev nD) (E : Set ℕ) (i : grid0.Coords)
    (arg1 : Memref sig .tc .vmem S2x4096x128 .f32) (harg1 : arg1.IsWhole) (arg2 : Memref sig .tc .vmem S4096x128 .f32) (harg2 : arg2.IsWhole)
    (arg3 : Memref sig .tc .vmem S128x512 .bf16) (harg3 : arg3.IsWhole) (arg4 : Memref sig .tc .vmem S128x512 .bf16) (harg4 : arg4.IsWhole)
    (arg5 : Memref sig .tc .vmem S2x4096x128 .f32) (harg5 : arg5.IsWhole)
    (x0 : Vec F S2x4096x128 .f32) (x1 : Vec F S4096x128 .f32) (x2 x3 : Vec F S128x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__lstm_kernel i arg1 harg1 arg2 harg2 arg3 harg3 arg4 harg4 arg5 harg5) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (slabs_cover _ _)

/-! ## The sweep's bookkeeping -/

/-- Per core: the arrays as the sweep finds them; after the body at point `t` every input buffer still at its block and
    the output buffer at `outBlock` of the input blocks; nothing kept between points beyond what the sweep itself keeps. -/
def sweep (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlock (blockAt m c 0 t) (blockAt m c 1 t) (blockAt m c 2 t) (blockAt m c 3 t)
  Φ _ := Pipeline.ΦA spec0 c
  q _ := fullShare
  owed _ := 0

theorem sweep_A (c : Dev nD) (w : Fin cfg0.W) : (sweep m 0 c).A w = atEntry m c (Pipeline.arrRef spec0 w) := by
  dsimp only [sweep]

theorem after_0 (c : Dev nD) (t : Fin cfg0.N) : (sweep m 0 c).after 0 t = blockAt m c 0 t := by dsimp only [sweep]
theorem after_1 (c : Dev nD) (t : Fin cfg0.N) : (sweep m 0 c).after 1 t = blockAt m c 1 t := by dsimp only [sweep]
theorem after_2 (c : Dev nD) (t : Fin cfg0.N) : (sweep m 0 c).after 2 t = blockAt m c 2 t := by dsimp only [sweep]
theorem after_3 (c : Dev nD) (t : Fin cfg0.N) : (sweep m 0 c).after 3 t = blockAt m c 3 t := by dsimp only [sweep]
theorem after_4 (c : Dev nD) (t : Fin cfg0.N) :
    (sweep m 0 c).after 4 t = outBlock (blockAt m c 0 t) (blockAt m c 1 t) (blockAt m c 2 t) (blockAt m c 3 t) := by dsimp only [sweep]

theorem before_0 (c : Dev nD) (t : Fin cfg0.N) (d) : (sweep m 0 c).before 0 t d = blockAt m c 0 t :=
  held0 m (sweep m 0 c) (sweep_A m c 0) (after_0 m c) t d
theorem before_1 (c : Dev nD) (t : Fin cfg0.N) (d) : (sweep m 0 c).before 1 t d = blockAt m c 1 t :=
  held1 m (sweep m 0 c) (sweep_A m c 1) (after_1 m c) t d
theorem before_2 (c : Dev nD) (t : Fin cfg0.N) (d) : (sweep m 0 c).before 2 t d = blockAt m c 2 t :=
  held2 m (sweep m 0 c) (sweep_A m c 2) (after_2 m c) t d
theorem before_3 (c : Dev nD) (t : Fin cfg0.N) (d) : (sweep m 0 c).before 3 t d = blockAt m c 3 t :=
  held3 m (sweep m 0 c) (sweep_A m c 3) (after_3 m c) t d

/-! ## The body at a grid point -/

/-- What the body is handed at point `t`, window by window, -/
def handed (c : Dev nD) (t : Fin cfg0.N) : sProp 𝕄 :=
  iprop((sweep m 0 c).Φ t.castSucc ∗ (sweep m 0 c).owesAt () t.castSucc
    ∗ (∃ d, owns (c : Thread nD τ) (st0_0 t) fullShare ((sweep m 0 c).before 0 t d))
    ∗ (∃ d, owns (c : Thread nD τ) (st0_1 t) fullShare ((sweep m 0 c).before 1 t d))
    ∗ (∃ d, owns (c : Thread nD τ) (st0_2 t) fullShare ((sweep m 0 c).before 2 t d))
    ∗ (∃ d, owns (c : Thread nD τ) (st0_3 t) fullShare ((sweep m 0 c).before 3 t d))
    ∗ (∃ d, owns (c : Thread nD τ) (st0_4 t) fullShare ((sweep m 0 c).before 4 t d)))

/-- and what it hands back. -/
def handedBack (c : Dev nD) (t : Fin cfg0.N) : sProp 𝕄 :=
  iprop((sweep m 0 c).Φ t.succ ∗ (sweep m 0 c).owesAt () t.succ
    ∗ owns (c : Thread nD τ) (st0_0 t) fullShare ((sweep m 0 c).after 0 t)
    ∗ owns (c : Thread nD τ) (st0_1 t) fullShare ((sweep m 0 c).after 1 t)
    ∗ owns (c : Thread nD τ) (st0_2 t) fullShare ((sweep m 0 c).after 2 t)
    ∗ owns (c : Thread nD τ) (st0_3 t) fullShare ((sweep m 0 c).after 3 t)
    ∗ owns (c : Thread nD τ) (st0_4 t) fullShare ((sweep m 0 c).after 4 t))

/-- At any point the input buffers hold their blocks, so the body runs as `body_runs` says; what the sweep keeps between
    points passes through untouched. -/
theorem body_at_point (c : Dev nD) (t : Fin cfg0.N) :
    handed m c t ⊢ wp frame (wpE (defs₀ (F := F)) Variants.none c none) Set.univ (bodyAt0 t) (fun _ => handedBack m c t) := by
  unfold handed handedBack bodyAt0
  simp only [before_0, before_1, before_2, before_3]
  rw [show (sweep m 0 c).Φ t.succ = (sweep m 0 c).Φ t.castSucc from rfl,
    show (sweep m 0 c).owesAt () t.succ = (sweep m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_runs c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The same at every point, in the form the sweep asks for. -/
theorem body_everywhere (c : Dev nD) : BodyObligation (sweep (F := F) m 0 c) (defs₀ (F := F)) Variants.none () Set.univ := fun t => by
  rw [bigSep_W0, bigSep_W0]
  exact body_at_point m c t

/-! ## The whole run -/

set_option backward.isDefEq.respectTransparency.types false in
/-- From any memory with all counters at zero, every fair execution of the program terminates without a fault; at the end
    each array the sweep stages holds what the sweep's bookkeeping computes for it, and every other buffer outside the
    core's scratch holds what the sweep found. -/
theorem whole_run : θ_run defs (onTc (τ := τ) (main (F := F))) (s₀ m ρ) (Pipeline.FramePost cfgs (sweep m) 0 (atEntry m)) :=
  Pipeline.θ_run_frame cfgs (sweep m) (0 : Fin 1) launch0 defs₀ Variants.none m ρ main
    (hbody := fun c => (body_everywhere m c).loose) (hshare := fun c => (sweep m 0 c).share_full fun _ => rfl)
    (howed := fun _ _ => rfl) (V := atEntry m) (hmain := prefix_then_sweep m Variants.none) (hA := sweep_A m) (hΦ := fun _ _ => rfl)

/-- Every argument array ends as launched: the state and the input are staged read-only, so they end as the sweep found
    them; the eight weight matrices are not staged at all; and the preparing operations write none of the ten. -/
theorem args_of_post (r : PUnit × MemSt nD τ sig (Elt F)) (h : Pipeline.FramePost cfgs (sweep m) 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
    ⟨((h c).1 0).trans (((sweep m 0 c).arrAt_in 0 rfl _).trans ((sweep_A m c 0).trans (atEntry_kept m c main_arg0 (by decide) (by decide) (by decide) (by decide)))),
     ((h c).1 1).trans (((sweep m 0 c).arrAt_in 1 rfl _).trans ((sweep_A m c 1).trans (atEntry_kept m c main_arg1 (by decide) (by decide) (by decide) (by decide)))),
     ((h c).2 main_arg2 (Pipeline.mem_restRefs_of main_arg2 (by decide) (by decide))).trans (atEntry_kept m c main_arg2 (by decide) (by decide) (by decide) (by decide)),
     ((h c).2 main_arg3 (Pipeline.mem_restRefs_of main_arg3 (by decide) (by decide))).trans (atEntry_kept m c main_arg3 (by decide) (by decide) (by decide) (by decide)),
     ((h c).2 main_arg4 (Pipeline.mem_restRefs_of main_arg4 (by decide) (by decide))).trans (atEntry_kept m c main_arg4 (by decide) (by decide) (by decide) (by decide)),
     ((h c).2 main_arg5 (Pipeline.mem_restRefs_of main_arg5 (by decide) (by decide))).trans (atEntry_kept m c main_arg5 (by decide) (by decide) (by decide) (by decide)),
     ((h c).2 main_arg6 (Pipeline.mem_restRefs_of main_arg6 (by decide) (by decide))).trans (atEntry_kept m c main_arg6 (by decide) (by decide) (by decide) (by decide)),
     ((h c).2 main_arg7 (Pipeline.mem_restRefs_of main_arg7 (by decide) (by decide))).trans (atEntry_kept m c main_arg7 (by decide) (by decide) (by decide) (by decide)),
     ((h c).2 main_arg8 (Pipeline.mem_restRefs_of main_arg8 (by decide) (by decide))).trans (atEntry_kept m c main_arg8 (by decide) (by decide) (by decide) (by decide)),
     ((h c).2 main_arg9 (Pipeline.mem_restRefs_of main_arg9 (by decide) (by decide))).trans (atEntry_kept m c main_arg9 (by decide) (by decide) (by decide) (by decide))⟩

/-- The same as a statement about the run. -/
theorem args_unchanged (h : θ_run defs (onTc (τ := τ) (main (F := F))) (s₀ m ρ) (Pipeline.FramePost cfgs (sweep m) 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_of_post m r h c) h

/-- The program runs to its end, faults nowhere, and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  args_unchanged m ρ (whole_run m ρ)

end Cert.KernelIdeal.FrameRun

end
-- ==== Proof.Cell.lean ====
/-
  One step of a long short-term memory cell, entry by entry, over the extended reals.

  The state is a stack of two `131072 × 128` matrices: slab 0 the hidden state `h`, slab 1 the cell state `c`.
  With `x` the `131072 × 128` input and `W`, `U` two `128 × 512` weight matrices, row `r` has the 512 pre-activations
      z(r, n) = ∑ₖ x(r, k) · W(k, n) + ∑ₖ h(r, k) · U(k, n),
  read in four groups of 128 columns: input gate, forget gate, output gate, candidate. The new cell state is
      c'(r, j) = σ(z(r, 128 + j)) · c(r, j) + σ(z(r, j)) · tanh(z(r, 384 + j))
  and the new hidden state
      h'(r, j) = σ(z(r, 256 + j)) · tanh(c'(r, j)),
  with `σ` the logistic function. The result is the stack of `h'` (slab 0) and `c'` (slab 1).

  Entry `(r, j)` of either result depends on row `r` of `x` and of `h`, on the one entry `c(r, j)`, and on the weights:
  the functions below take exactly those, so that they can be read both on the whole batch and on any block of rows.
-/
import Idealize.ShloMosaic.PureOps.Ideal
import Idealize.ShloMosaic.Lib.ValueIdx

noncomputable section

open scoped BigOperators

namespace Cert.Cell

open Idealize.ShloMosaic Idealize.ShloMosaic.ValueIdx

/-- The stacked state: slab 0 the hidden state, slab 1 the cell state. -/
abbrev State : Shape := ⟨3, ![2, 131072, 128]⟩
/-- A batch of rows. -/
abbrev Rows : Shape := ⟨2, ![131072, 128]⟩
/-- Four `128 × 128` weight matrices side by side. -/
abbrev Wide : Shape := ⟨2, ![128, 512]⟩

/-- Column `j` of the input gate's group. -/
abbrev colI (j : Fin 128) : Fin 512 := ⟨j.val, by omega⟩
/-- Column `j` of the forget gate's group. -/
abbrev colF (j : Fin 128) : Fin 512 := ⟨128 + j.val, by omega⟩
/-- Column `j` of the output gate's group. -/
abbrev colO (j : Fin 128) : Fin 512 := ⟨256 + j.val, by omega⟩
/-- Column `j` of the candidate's group. -/
abbrev colG (j : Fin 128) : Fin 512 := ⟨384 + j.val, by omega⟩

/-- The pre-activation of column `n` for one row: the input row `xr` against column `n` of `W` plus the hidden row `hr`
    against column `n` of `U`. -/
def pre (xr hr : Fin 128 → EReal) (W U : Wide.Idx → EReal) (n : Fin 512) : EReal :=
  (∑ k : Fin 128, xr k * W (ix2 k n)) + ∑ k : Fin 128, hr k * U (ix2 k n)

/-- The new cell state at column `j` of a row with input `xr`, hidden state `hr` and old cell state `cj` at that column. -/
def newC (xr hr : Fin 128 → EReal) (cj : EReal) (W U : Wide.Idx → EReal) (j : Fin 128) : EReal :=
  Ideal.logistic (pre xr hr W U (colF j)) * cj + Ideal.logistic (pre xr hr W U (colI j)) * Ideal.tanh (pre xr hr W U (colG j))

/-- The new hidden state at column `j` of that row. -/
def newH (xr hr : Fin 128 → EReal) (cj : EReal) (W U : Wide.Idx → EReal) (j : Fin 128) : EReal :=
  Ideal.logistic (pre xr hr W U (colO j)) * Ideal.tanh (newC xr hr cj W U j)

/-- The row and the column of an index of the stacked state. -/
abbrev rowOf (i : State.Idx) : Fin 131072 := ⟨(i 1).val, (i 1).isLt⟩
abbrev colOf (i : State.Idx) : Fin 128 := ⟨(i 2).val, (i 2).isLt⟩

/-- The step on the whole batch: `h'` stacked on `c'`. -/
def step (s : State.Idx → EReal) (x : Rows.Idx → EReal) (W U : Wide.Idx → EReal) : State.Idx → EReal :=
  fun i =>
    if (i 0).val = 0 then
      newH (fun k => x (ix2 (rowOf i) k)) (fun k => s (ix3 (0 : Fin 2) (rowOf i) k)) (s (ix3 (1 : Fin 2) (rowOf i) (colOf i))) W U (colOf i)
    else
      newC (fun k => x (ix2 (rowOf i) k)) (fun k => s (ix3 (0 : Fin 2) (rowOf i) k)) (s (ix3 (1 : Fin 2) (rowOf i) (colOf i))) W U (colOf i)

theorem step_hidden (s : State.Idx → EReal) (x : Rows.Idx → EReal) (W U : Wide.Idx → EReal) (r : Fin 131072) (j : Fin 128) :
    step s x W U (ix3 (0 : Fin 2) r j)
      = newH (fun k => x (ix2 r k)) (fun k => s (ix3 (0 : Fin 2) r k)) (s (ix3 (1 : Fin 2) r j)) W U j := if_pos rfl

theorem step_cell (s : State.Idx → EReal) (x : Rows.Idx → EReal) (W U : Wide.Idx → EReal) (r : Fin 131072) (j : Fin 128) :
    step s x W U (ix3 (1 : Fin 2) r j)
      = newC (fun k => x (ix2 r k)) (fun k => s (ix3 (0 : Fin 2) r k)) (s (ix3 (1 : Fin 2) r j)) W U j := by
  show (if ((1 : Fin 2).val = 0) then _ else _) = _
  exact if_neg (by decide)

end Cert.Cell

end
-- ==== Proof.BlockStep.lean ====
/-
  The arithmetic of one block of rows, entry by entry.

  The body works on a block of 4096 rows: the block `h` of the hidden state and the block `c` of the cell state (each held
  as a `1 × 4096 × 128` array), the block `x` of the input, and the two `128 × 512` weight matrices `W`, `U`. It forms
  the `4096 × 512` matrix `x · W + h · U`, applies the logistic function to its first 384 columns, and combines the four
  groups of 128 columns into the new cell state and the new hidden state.

  Read at row `r` and column `j` of the block, the two values it produces are `Cell.newH` and `Cell.newC` of row `r` of
  `x` and of `h`, of the entry `c(r, j)` and of the weights. The steps: the pre-activation at `(r, n)` is `Cell.pre`
  (each product into a zero accumulator is a sum over the 128 contracted entries); a slice at column offset `o` reads
  column `o + j`; the logistic function and the hyperbolic tangent act entry by entry; a leading axis of extent one
  changes nothing.
-/
import proofs.«167001_j5471788335349_2_alg».proof.Proof.Gen.KernelIdeal.Skeleton
import proofs.«167001_j5471788335349_2_alg».proof.Proof.Cell
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockStep

open Cert.KernelIdeal Cert.KernelIdeal.Gen Idealize.ShloMosaic Idealize.ShloMosaic.ValueIdx

/-- The left operand's index at output index `i` and contracted index `q`: its row is the output's row … -/
theorem lhs_0 (i : S4096x512.Idx) (q : dot_S4096x128_S128x512_S4096x512_1_0_0_1_n_n.contr.Idx) :
    (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl
/-- … and its column the contracted index. -/
theorem lhs_1 (i : S4096x512.Idx) (q : dot_S4096x128_S128x512_S4096x512_1_0_0_1_n_n.contr.Idx) :
    (dot_S4096x128_S128x512_S4096x512_1_0_0_1_n_n.lhsIdx i q 1).val = (q ⟨0, by decide⟩).val :=
  dot_S4096x128_S128x512_S4096x512_1_0_0_1_n_n.lhsIdx_val_of_single rfl i q
/-- The right operand's index: its row is the contracted index … -/
theorem rhs_0 (i : S4096x512.Idx) (q : dot_S4096x128_S128x512_S4096x512_1_0_0_1_n_n.contr.Idx) :
    (dot_S4096x128_S128x512_S4096x512_1_0_0_1_n_n.rhsIdx i q 0).val = (q ⟨0, by decide⟩).val :=
  dot_S4096x128_S128x512_S4096x512_1_0_0_1_n_n.rhsIdx_val_of_single rfl i q
/-- … and its column the output's column. -/
theorem rhs_1 (i : S4096x512.Idx) (q : dot_S4096x128_S128x512_S4096x512_1_0_0_1_n_n.contr.Idx) :
    (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

/-- One product of a `4096 × 128` matrix with a `128 × 512` matrix into the zero accumulator, at `(r, n)`: the sum over
    the contracted index `k` of the left operand at `(r, k)` times the right operand at `(k, n)`. -/
theorem matmul_at (a : FVec Ideal S4096x128 .bf16) (b : FVec Ideal S128x512 .bf16) (r : Fin 4096) (n : Fin 512) :
    matmul dot_S4096x128_S128x512_S4096x512_1_0_0_1_n_n none a b (constant S4096x512 .f32 0x00000000#32) (ix2 r n)
      = ∑ k : Fin 128, a (ix2 r k) * b (ix2 k n) := by
  simp only [matmul]
  rw [Ideal.matmul_constant_zero_apply, ← Equiv.sum_comp (contrEquiv1 dot_S4096x128_S128x512_S4096x512_1_0_0_1_n_n 128 rfl rfl).symm]
  refine Finset.sum_congr rfl fun k _ => ?_
  have hk := contrEquiv1_symm_val dot_S4096x128_S128x512_S4096x512_1_0_0_1_n_n 128 rfl rfl k
  have el : dot_S4096x128_S128x512_S4096x512_1_0_0_1_n_n.lhsIdx (ix2 r n) ((contrEquiv1 dot_S4096x128_S128x512_S4096x512_1_0_0_1_n_n 128 rfl rfl).symm k) = ix2 r k := funext fun c => Fin.ext (by
    match c with
    | ⟨0, _⟩ => exact lhs_0 _ _
    | ⟨1, _⟩ => exact (lhs_1 _ _).trans hk)
  have er : dot_S4096x128_S128x512_S4096x512_1_0_0_1_n_n.rhsIdx (ix2 r n) ((contrEquiv1 dot_S4096x128_S128x512_S4096x512_1_0_0_1_n_n 128 rfl rfl).symm k) = ix2 k n := funext fun c => Fin.ext (by
    match c with
    | ⟨0, _⟩ => exact (rhs_0 _ _).trans hk
    | ⟨1, _⟩ => exact rhs_1 _ _)
  rw [el, er]

/-- The pre-activation at `(r, n)`. -/
theorem pre_at (v0 : Vec Ideal S1x4096x128 .f32) (v4 : Vec Ideal S4096x128 .f32) (v7 v10 : Vec Ideal S128x512 .bf16)
    (r : Fin 4096) (n : Fin 512) :
    k0_pay1 (F := Ideal) v0 v4 v7 v10 (ix2 r n)
      = Cert.Cell.pre (fun k => v4 (ix2 r k)) (fun k => v0 (ix3 (0 : Fin 1) r k)) v7 v10 n := by
  unfold k0_pay1 Cert.Cell.pre
  rw [shapeCast_self v7, shapeCast_self v10]
  refine (addf_apply _ _ _).trans ?_
  rw [matmul_at, matmul_at]
  refine congrArg₂ (· + ·) rfl (Finset.sum_congr rfl fun k _ => ?_)
  refine congrArg (· * v10 (ix2 k n)) ?_
  exact shapeCast_1ab_ab_apply v0 shapeCasts_S1x4096x128_S4096x128 r k

/-- The hyperbolic tangent and the logistic function act entry by entry. -/
theorem tanh_at {s : Shape} (y : FVec Ideal s .f32) (i : s.Idx) : tanh y i = Ideal.tanh (y i) := rfl
theorem logistic_at {s : Shape} (y : FVec Ideal s .f32) (i : s.Idx) : logistic y i = Ideal.logistic (y i) := rfl

/-- The first 384 of 512 columns. -/
theorem slice_gates (y : FVec Ideal S4096x512 .f32) (r : Fin 4096) (n : Fin 384) :
    extractStridedSlice S4096x384 ![0, 0] y slices_S4096x512_o0_0_S4096x384 (ix2 r n) = y (ix2 r (⟨n.val, by omega⟩ : Fin 512)) :=
  extractStridedSlice_apply ![0, 0] y slices_S4096x512_o0_0_S4096x384 (ix2 r n) (ix2 r (⟨n.val, by omega⟩ : Fin 512)) (fun a => match a with
    | ⟨0, _⟩ => by show r.val = 0 + r.val; omega
    | ⟨1, _⟩ => by show n.val = 0 + n.val; omega)

/-- The last 128 of 512 columns. -/
theorem slice_cand (y : FVec Ideal S4096x512 .f32) (r : Fin 4096) (j : Fin 128) :
    extractStridedSlice S4096x128 ![0, 384] y slices_S4096x512_o0_384_S4096x128 (ix2 r j) = y (ix2 r (Cert.Cell.colG j)) :=
  extractStridedSlice_apply ![0, 384] y slices_S4096x512_o0_384_S4096x128 (ix2 r j) (ix2 r (Cert.Cell.colG j)) (fun a => match a with
    | ⟨0, _⟩ => by show r.val = 0 + r.val; omega
    | ⟨1, _⟩ => by show 384 + j.val = 384 + j.val; rfl)

/-- The three groups of 128 among 384 columns. -/
theorem slice_0 (g : FVec Ideal S4096x384 .f32) (r : Fin 4096) (j : Fin 128) :
    extractStridedSlice S4096x128 ![0, 0] g slices_S4096x384_o0_0_S4096x128 (ix2 r j) = g (ix2 r (⟨j.val, by omega⟩ : Fin 384)) :=
  extractStridedSlice_apply ![0, 0] g slices_S4096x384_o0_0_S4096x128 (ix2 r j) (ix2 r (⟨j.val, by omega⟩ : Fin 384)) (fun a => match a with
    | ⟨0, _⟩ => by show r.val = 0 + r.val; omega
    | ⟨1, _⟩ => by show j.val = 0 + j.val; omega)
theorem slice_128 (g : FVec Ideal S4096x384 .f32) (r : Fin 4096) (j : Fin 128) :
    extractStridedSlice S4096x128 ![0, 128] g slices_S4096x384_o0_128_S4096x128 (ix2 r j) = g (ix2 r (⟨128 + j.val, by omega⟩ : Fin 384)) :=
  extractStridedSlice_apply ![0, 128] g slices_S4096x384_o0_128_S4096x128 (ix2 r j) (ix2 r (⟨128 + j.val, by omega⟩ : Fin 384)) (fun a => match a with
    | ⟨0, _⟩ => by show r.val = 0 + r.val; omega
    | ⟨1, _⟩ => by show 128 + j.val = 128 + j.val; rfl)
theorem slice_256 (g : FVec Ideal S4096x384 .f32) (r : Fin 4096) (j : Fin 128) :
    extractStridedSlice S4096x128 ![0, 256] g slices_S4096x384_o0_256_S4096x128 (ix2 r j) = g (ix2 r (⟨256 + j.val, by omega⟩ : Fin 384)) :=
  extractStridedSlice_apply ![0, 256] g slices_S4096x384_o0_256_S4096x128 (ix2 r j) (ix2 r (⟨256 + j.val, by omega⟩ : Fin 384)) (fun a => match a with
    | ⟨0, _⟩ => by show r.val = 0 + r.val; omega
    | ⟨1, _⟩ => by show 256 + j.val = 256 + j.val; rfl)

/-- The gates: the logistic function of the pre-activation, at column `n` of the first 384. -/
theorem gate_at (v0 : Vec Ideal S1x4096x128 .f32) (v4 : Vec Ideal S4096x128 .f32) (v7 v10 : Vec Ideal S128x512 .bf16)
    (r : Fin 4096) (n : Fin 384) :
    k0_pay2 (F := Ideal) v0 v4 v7 v10 (ix2 r n)
      = Ideal.logistic (Cert.Cell.pre (fun k => v4 (ix2 r k)) (fun k => v0 (ix3 (0 : Fin 1) r k)) v7 v10 (⟨n.val, by omega⟩ : Fin 512)) := by
  unfold k0_pay2
  refine (logistic_at _ _).trans (congrArg Ideal.logistic ?_)
  exact (slice_gates _ r n).trans (pre_at v0 v4 v7 v10 r _)

/-- The new cell state at `(r, j)`. -/
theorem newC_at (v0 v2 : Vec Ideal S1x4096x128 .f32) (v4 : Vec Ideal S4096x128 .f32) (v7 v10 : Vec Ideal S128x512 .bf16)
    (r : Fin 4096) (j : Fin 128) :
    k0_pay3 (F := Ideal) v0 v2 v4 v7 v10 (ix2 r j)
      = Cert.Cell.newC (fun k => v4 (ix2 r k)) (fun k => v0 (ix3 (0 : Fin 1) r k)) (v2 (ix3 (0 : Fin 1) r j)) v7 v10 j := by
  unfold k0_pay3 Cert.Cell.newC
  refine (addf_apply _ _ _).trans (congrArg₂ (· + ·) ?_ ?_)
  · refine (mulf_apply _ _ _).trans (congrArg₂ (· * ·) ?_ ?_)
    · exact (slice_128 _ r j).trans (gate_at v0 v4 v7 v10 r _)
    · exact shapeCast_1ab_ab_apply v2 shapeCasts_S1x4096x128_S4096x128 r j
  · refine (mulf_apply _ _ _).trans (congrArg₂ (· * ·) ?_ ?_)
    · exact (slice_0 _ r j).trans (gate_at v0 v4 v7 v10 r _)
    · refine (tanh_at _ _).trans (congrArg Ideal.tanh ?_)
      exact (slice_cand _ r j).trans (pre_at v0 v4 v7 v10 r _)

/-- The value stored into slab 0 of the output block: the new hidden state. -/
theorem hidden_at (v0 v2 : Vec Ideal S1x4096x128 .f32) (v4 : Vec Ideal S4096x128 .f32) (v7 v10 : Vec Ideal S128x512 .bf16)
    (r : Fin 4096) (j : Fin 128) :
    k0_pay4 (F := Ideal) v0 v2 v4 v7 v10 (ix3 (0 : Fin 1) r j)
      = Cert.Cell.newH (fun k => v4 (ix2 r k)) (fun k => v0 (ix3 (0 : Fin 1) r k)) (v2 (ix3 (0 : Fin 1) r j)) v7 v10 j := by
  unfold k0_pay4 Cert.Cell.newH
  refine (shapeCast_ab_1ab_apply _ shapeCasts_S4096x128_S1x4096x128 (0 : Fin 1) r j).trans ?_
  refine (mulf_apply _ _ _).trans (congrArg₂ (· * ·) ?_ ?_)
  · exact (slice_256 _ r j).trans (gate_at v0 v4 v7 v10 r _)
  · exact (tanh_at _ _).trans (congrArg Ideal.tanh (newC_at v0 v2 v4 v7 v10 r j))

/-- The value stored into slab 1 of the output block: the new cell state. -/
theorem cell_at (v0 v2 : Vec Ideal S1x4096x128 .f32) (v4 : Vec Ideal S4096x128 .f32) (v7 v10 : Vec Ideal S128x512 .bf16)
    (r : Fin 4096) (j : Fin 128) :
    k0_pay5 (F := Ideal) v0 v2 v4 v7 v10 (ix3 (0 : Fin 1) r j)
      = Cert.Cell.newC (fun k => v4 (ix2 r k)) (fun k => v0 (ix3 (0 : Fin 1) r k)) (v2 (ix3 (0 : Fin 1) r j)) v7 v10 j := by
  unfold k0_pay5
  exact (shapeCast_ab_1ab_apply _ shapeCasts_S4096x128_S1x4096x128 (0 : Fin 1) r j).trans (newC_at v0 v2 v4 v7 v10 r j)

end Cert.KernelIdeal.BlockStep

end
-- ==== Proof.KernelStep.lean ====
/-
  What the idealized kernel's program leaves in its result array: one step of the cell of Cell.lean on the whole batch.

  The output block written at grid point `t` has two slabs, the new hidden state and the new cell state of rows
  `4096·t … 4096·t + 4095`; each entry of either depends on that row of the input and of the hidden state, on one entry of
  the cell state, and on the two weight matrices, exactly as in Cell.lean. So the block is the block at `t` of
  `Cell.step` of the whole arrays. The 32 blocks tile the result array — row `r` lies in block `r / 4096` — so the array
  ends as `Cell.step` of the state, the input and the two weight matrices the preparing operations left: the four
  input-side matrices side by side, and the four recurrent ones side by side.
-/
import proofs.«167001_j5471788335349_2_alg».proof.Proof.FrameIdeal
import proofs.«167001_j5471788335349_2_alg».proof.Proof.BlockStep
import proofs.«167001_j5471788335349_2_alg».proof.Proof.Cell
import Idealize.ShloMosaic.Lib.Pipeline.Value
import Idealize.ShloMosaic.Lib.ValueIdx
import Idealize.ShloMosaic.Lib.StableHlo.Run

set_option maxRecDepth 16384

noncomputable section

namespace Cert.KernelIdeal.Stepped

open Cert.KernelIdeal Cert.KernelIdeal.Gen Cert.KernelIdeal.FrameRun
open Idealize.ShloMosaic Idealize.ShloMosaic.TcCoe Idealize.SL.Sem Idealize.ShloMosaic.ValueIdx
open Idealize.ShloMosaic.Pipeline (Dat)

/-! ## One block -/

/-- The row and the column of an index of a `2 × 4096 × 128` block. -/
abbrev rowIn (y : S2x4096x128.Idx) : Fin 4096 := ⟨(y 1).val, (y 1).isLt⟩
abbrev colIn (y : S2x4096x128.Idx) : Fin 128 := ⟨(y 2).val, (y 2).isLt⟩

/-- The step on one block of rows: from the block `x0` of the stacked state, the block `x1` of the input and the weights,
    the new hidden state in slab 0 and the new cell state in slab 1. -/
def blockStep (x0 : Vec Ideal S2x4096x128 .f32) (x1 : Vec Ideal S4096x128 .f32) (x2 x3 : Vec Ideal S128x512 .bf16) : S2x4096x128.Idx → EReal :=
  fun y =>
    if (y 0).val = 0 then
      Cell.newH (fun k => x1 (ix2 (rowIn y) k)) (fun k => x0 (ix3 (0 : Fin 2) (rowIn y) k)) (x0 (ix3 (1 : Fin 2) (rowIn y) (colIn y))) x2 x3 (colIn y)
    else
      Cell.newC (fun k => x1 (ix2 (rowIn y) k)) (fun k => x0 (ix3 (0 : Fin 2) (rowIn y) k)) (x0 (ix3 (1 : Fin 2) (rowIn y) (colIn y))) x2 x3 (colIn y)

theorem blockStep_hidden (x0 : Vec Ideal S2x4096x128 .f32) (x1 : Vec Ideal S4096x128 .f32) (x2 x3 : Vec Ideal S128x512 .bf16) (r : Fin 4096) (j : Fin 128) :
    blockStep x0 x1 x2 x3 (ix3 (0 : Fin 2) r j)
      = Cell.newH (fun k => x1 (ix2 r k)) (fun k => x0 (ix3 (0 : Fin 2) r k)) (x0 (ix3 (1 : Fin 2) r j)) x2 x3 j := if_pos rfl

theorem blockStep_cell (x0 : Vec Ideal S2x4096x128 .f32) (x1 : Vec Ideal S4096x128 .f32) (x2 x3 : Vec Ideal S128x512 .bf16) (r : Fin 4096) (j : Fin 128) :
    blockStep x0 x1 x2 x3 (ix3 (1 : Fin 2) r j)
      = Cell.newC (fun k => x1 (ix2 r k)) (fun k => x0 (ix3 (0 : Fin 2) r k)) (x0 (ix3 (1 : Fin 2) r j)) x2 x3 j := by
  show (if ((1 : Fin 2).val = 0) then _ else _) = _
  exact if_neg (by decide)

theorem zero2 : (![0, 0] : Fin 2 → Nat) = fun _ => 0 := funext fun a => by fin_cases a <;> rfl

/-- Entry `(0, r, k)` of slab 0 of a block is entry `(0, r, k)` of the block; of slab 1, entry `(1, r, k)`. -/
theorem slab0_at (r : Fin 4096) (k : Fin 128) : slab0.emb (ix3 (0 : Fin 1) r k) = ix3 (0 : Fin 2) r k := by
  funext a; apply Fin.ext
  match a with
  | ⟨0, _⟩ => rfl
  | ⟨1, _⟩ => show 0 + 1 * r.val = r.val; omega
  | ⟨2, _⟩ => show 0 + 1 * k.val = k.val; omega
theorem slab1_at (r : Fin 4096) (k : Fin 128) : slab1.emb (ix3 (0 : Fin 1) r k) = ix3 (1 : Fin 2) r k := by
  funext a; apply Fin.ext
  match a with
  | ⟨0, _⟩ => rfl
  | ⟨1, _⟩ => show 0 + 1 * r.val = r.val; omega
  | ⟨2, _⟩ => show 0 + 1 * k.val = k.val; omega

/-- The value stored into slab 1 is `blockStep` there. -/
theorem piece1 (x0 : Vec Ideal S2x4096x128 .f32) (x1 : Vec Ideal S4096x128 .f32) (x2 x3 : Vec Ideal S128x512 .bf16) (x : S1x4096x128.Idx) :
    k0_pay5 (F := Ideal) (View.ld x0 slab0) (View.ld x0 slab1) (View.ld x1 rows) (View.ld x2 weights) (View.ld x3 weights) x
      = blockStep x0 x1 x2 x3 (slab1.emb x) := by
  obtain ⟨a, r, j, rfl⟩ : ∃ (a : Fin 1) (r : Fin 4096) (j : Fin 128), x = ix3 a r j := ⟨x 0, x 1, x 2, eq_ix3 x⟩
  obtain rfl : a = 0 := Subsingleton.elim _ _
  rw [slab1_at, blockStep_cell, BlockStep.cell_at]
  rw [View.ld_unit_zero (S := S4096x128) zero2, View.ld_unit_zero (S := S128x512) zero2, View.ld_unit_zero (S := S128x512) zero2]
  show Cell.newC (fun k => x1 (ix2 r k)) (fun k => x0 (slab0.emb (ix3 (0 : Fin 1) r k))) (x0 (slab1.emb (ix3 (0 : Fin 1) r j))) x2 x3 j = _
  simp only [slab0_at, slab1_at]

/-- The value stored into slab 0 is `blockStep` there. -/
theorem piece0 (x0 : Vec Ideal S2x4096x128 .f32) (x1 : Vec Ideal S4096x128 .f32) (x2 x3 : Vec Ideal S128x512 .bf16) (x : S1x4096x128.Idx) :
    k0_pay4 (F := Ideal) (View.ld x0 slab0) (View.ld x0 slab1) (View.ld x1 rows) (View.ld x2 weights) (View.ld x3 weights) x
      = blockStep x0 x1 x2 x3 (slab0.emb x) := by
  obtain ⟨a, r, j, rfl⟩ : ∃ (a : Fin 1) (r : Fin 4096) (j : Fin 128), x = ix3 a r j := ⟨x 0, x 1, x 2, eq_ix3 x⟩
  obtain rfl : a = 0 := Subsingleton.elim _ _
  rw [slab0_at, blockStep_hidden, BlockStep.hidden_at]
  rw [View.ld_unit_zero (S := S4096x128) zero2, View.ld_unit_zero (S := S128x512) zero2, View.ld_unit_zero (S := S128x512) zero2]
  show Cell.newH (fun k => x1 (ix2 r k)) (fun k => x0 (slab0.emb (ix3 (0 : Fin 1) r k))) (x0 (slab1.emb (ix3 (0 : Fin 1) r j))) x2 x3 j = _
  simp only [slab0_at, slab1_at]

/-- What the body leaves in the output block is the step on the block. -/
theorem outBlock_eq (x0 : Vec Ideal S2x4096x128 .f32) (x1 : Vec Ideal S4096x128 .f32) (x2 x3 : Vec Ideal S128x512 .bf16) :
    outBlock x0 x1 x2 x3 = blockStep x0 x1 x2 x3 := by
  funext y
  unfold outBlock
  refine View.canon_apply_of_pieces (Val := Elt Ideal) (S := S2x4096x128) (e := .f32) (blockStep x0 x1 x2 x3) _ ?_ y (slabs_cover _ _ y)
  intro p hp x
  simp only [List.mem_cons, List.not_mem_nil, or_false] at hp
  rcases hp with rfl | rfl
  · exact piece1 x0 x1 x2 x3 x
  · exact piece0 x0 x1 x2 x3 x

/-! ## A block of the step is the step on the block -/

/-- If `x0`, `x1` are the blocks of rows `4096·T …` of the state `st` and the input `xin`, the step on the block is the
    step on the whole batch read at those rows. -/
theorem block_of_step (st : Cell.State.Idx → EReal) (xin : Cell.Rows.Idx → EReal) (W U : Cell.Wide.Idx → EReal) (T : Nat) (hT : T < 32)
    (x0 : Vec Ideal S2x4096x128 .f32) (x1 : Vec Ideal S4096x128 .f32) (x2 x3 : Vec Ideal S128x512 .bf16)
    (h0 : ∀ (s : Fin 2) (r : Fin 4096) (k : Fin 128),
      x0 (ix3 s r k) = st (ix3 s (⟨T * 4096 + r.val, by have := r.isLt; omega⟩ : Fin 131072) k))
    (h1 : ∀ (r : Fin 4096) (k : Fin 128), x1 (ix2 r k) = xin (ix2 (⟨T * 4096 + r.val, by have := r.isLt; omega⟩ : Fin 131072) k))
    (h2 : x2 = W) (h3 : x3 = U) (s : Fin 2) (r : Fin 4096) (j : Fin 128) :
    blockStep x0 x1 x2 x3 (ix3 s r j)
      = Cell.step st xin W U (ix3 s (⟨T * 4096 + r.val, by have := r.isLt; omega⟩ : Fin 131072) j) := by
  subst h2 h3
  match s with
  | ⟨0, _⟩ =>
    show blockStep x0 x1 x2 x3 (ix3 (0 : Fin 2) r j) = Cell.step st xin x2 x3 (ix3 (0 : Fin 2) _ j)
    rw [blockStep_hidden, Cell.step_hidden]
    simp only [h0, h1]
  | ⟨1, _⟩ =>
    show blockStep x0 x1 x2 x3 (ix3 (1 : Fin 2) r j) = Cell.step st xin x2 x3 (ix3 (1 : Fin 2) _ j)
    rw [blockStep_cell, Cell.step_cell]
    simp only [h0, h1]

/-- Where each window's block sits at grid point `t`: the state's, the input's and the result's blocks at rows
    `4096·t …`, the weight matrices whole. Decided over the 32 points. -/
theorem places : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

variable (m : (ℓ : Loc nD τ sig) → Buf (Elt Ideal) ℓ) (ρ : Dev nD → PrngReg)

/-- The step on the whole batch, of the state and input as launched and the weight matrices as the sweep finds them. -/
def stepped (c : Dev nD) : Cell.State.Idx → EReal :=
  Cell.step (m ((c : Thread nD τ).loc main_arg0)) (m ((c : Thread nD τ).loc main_arg1)) (atEntry m c main_v1) (atEntry m c main_v3)

/-- What grid point `t` writes back is block `t` of the step on the whole batch. -/
theorem flushed_eq (c : Dev nD) (t : Fin cfg0.N) :
    (sweep m 0 c).flushed 4 t = ((cfg0.win 4).blk t).view.read (Elt Ideal) (stepped m c) := by
  show (cfg0.win 4).cut (grid0.coords t) ((sweep m 0 c).after 4 t) = _
  rw [after_4]
  obtain ⟨a0, a1, a2, b0, b1, w0, w1, u0, u1, o0, o1, o2⟩ := places t
  have ht : t.val < 32 := lt_of_lt_of_eq t.isLt N_0
  funext y
  have hy0 : (y 0).val < 2 := (y 0).isLt
  have hy1 : (y 1).val < 4096 := (y 1).isLt
  have hy2 : (y 2).val < 128 := (y 2).isLt
  show outBlock (blockAt m c 0 t) (blockAt m c 1 t) (blockAt m c 2 t) (blockAt m c 3 t) y = stepped m c (((cfg0.win 4).blk t).view.emb y)
  refine (congrFun (outBlock_eq (blockAt m c 0 t) (blockAt m c 1 t) (blockAt m c 2 t) (blockAt m c 3 t)) y).trans ?_
  refine (block_of_step (m ((c : Thread nD τ).loc main_arg0)) (m ((c : Thread nD τ).loc main_arg1)) (atEntry m c main_v1) (atEntry m c main_v3) t.val ht
    (blockAt m c 0 t) (blockAt m c 1 t) (blockAt m c 2 t) (blockAt m c 3 t) ?_ ?_ ?_ ?_
    (⟨(y 0).val, hy0⟩ : Fin 2) (⟨(y 1).val, hy1⟩ : Fin 4096) (⟨(y 2).val, hy2⟩ : Fin 128)).trans ?_
  · intro s r k
    show atEntry m c main_arg0 (((cfg0.win 0).blk t).view.emb (ix3 s r k)) = _
    rw [atEntry_kept m c main_arg0 (by decide) (by decide) (by decide) (by decide)]
    refine congrArg _ ?_
    funext a; apply Fin.ext
    match a with
    | ⟨0, _⟩ => show win0_0.index t (0 : Fin 3) * 2 + 1 * s.val = s.val; omega
    | ⟨1, _⟩ => show win0_0.index t (1 : Fin 3) * 4096 + 1 * r.val = t.val * 4096 + r.val; omega
    | ⟨2, _⟩ => show win0_0.index t (2 : Fin 3) * 128 + 1 * k.val = k.val; omega
  · intro r k
    show atEntry m c main_arg1 (((cfg0.win 1).blk t).view.emb (ix2 r k)) = _
    rw [atEntry_kept m c main_arg1 (by decide) (by decide) (by decide) (by decide)]
    refine congrArg _ ?_
    funext a; apply Fin.ext
    match a with
    | ⟨0, _⟩ => show win0_1.index t (0 : Fin 2) * 4096 + 1 * r.val = t.val * 4096 + r.val; omega
    | ⟨1, _⟩ => show win0_1.index t (1 : Fin 2) * 128 + 1 * k.val = k.val; omega
  · funext z
    show atEntry m c main_v1 (((cfg0.win 2).blk t).view.emb z) = atEntry m c main_v1 z
    refine congrArg _ ?_
    funext a; apply Fin.ext
    match a with
    | ⟨0, _⟩ => show win0_2.index t (0 : Fin 2) * 128 + 1 * (z 0).val = (z 0).val; omega
    | ⟨1, _⟩ => show win0_2.index t (1 : Fin 2) * 512 + 1 * (z 1).val = (z 1).val; omega
  · funext z
    show atEntry m c main_v3 (((cfg0.win 3).blk t).view.emb z) = atEntry m c main_v3 z
    refine congrArg _ ?_
    funext a; apply Fin.ext
    match a with
    | ⟨0, _⟩ => show win0_3.index t (0 : Fin 2) * 128 + 1 * (z 0).val = (z 0).val; omega
    | ⟨1, _⟩ => show win0_3.index t (1 : Fin 2) * 512 + 1 * (z 1).val = (z 1).val; omega
  · show Cell.step _ _ _ _ _ = Cell.step _ _ _ _ (((cfg0.win 4).blk t).view.emb y)
    refine congrArg _ ?_
    funext a; apply Fin.ext
    match a with
    | ⟨0, _⟩ => show (y 0).val = win0_4.index t (0 : Fin 3) * 2 + 1 * (y 0).val; omega
    | ⟨1, _⟩ => show t.val * 4096 + (y 1).val = win0_4.index t (1 : Fin 3) * 4096 + 1 * (y 1).val; omega
    | ⟨2, _⟩ => show (y 2).val = win0_4.index t (2 : Fin 3) * 128 + 1 * (y 2).val; omega

/-! ## The blocks tile the result -/

theorem mem_block (t : Fin cfg0.N) (i : S2x131072x128.Idx) :
    i ∈ ((cfg0.win 4).blk t).view.set ↔ ∀ a : Fin 3, win0_4.index t a * S2x4096x128.size a ≤ (i a).val ∧ (i a).val < win0_4.index t a * S2x4096x128.size a + S2x4096x128.size a := by
  show i ∈ ((View.whole main_v4).slice (win0_4.rect t)).set ↔ _
  rw [View.set_slice_whole, Rect.mem_set_unit]
  exact Iff.rfl

/-- Row `r` of the result lies in block `r / 4096`. -/
theorem covered (i : S2x131072x128.Idx) : ∃ t : Fin cfg0.N, (cfg0.win 4).flush t = true ∧ i ∈ ((cfg0.win 4).blk t).view.set := by
  have h0 : (i 0).val < 2 := (i 0).isLt
  have h1 : (i 1).val < 131072 := (i 1).isLt
  have h2 : (i 2).val < 128 := (i 2).isLt
  have hN : grid0.N = 32 := N_0
  have hlt : (i 1).val / 4096 < grid0.N := by rw [hN]; omega
  obtain ⟨-, -, -, -, -, -, -, -, -, o0, o1, o2⟩ := places ⟨(i 1).val / 4096, hlt⟩
  have o1' : win0_4.index ⟨(i 1).val / 4096, hlt⟩ (1 : Fin 3) = (i 1).val / 4096 := o1
  refine ⟨⟨(i 1).val / 4096, hlt⟩, flush0_4 _, ?_⟩
  rw [mem_block]
  intro a
  match a with
  | ⟨0, _⟩ => show win0_4.index ⟨(i 1).val / 4096, hlt⟩ (0 : Fin 3) * 2 ≤ (i 0).val ∧ (i 0).val < win0_4.index ⟨(i 1).val / 4096, hlt⟩ (0 : Fin 3) * 2 + 2; omega
  | ⟨1, _⟩ => show win0_4.index ⟨(i 1).val / 4096, hlt⟩ (1 : Fin 3) * 4096 ≤ (i 1).val ∧ (i 1).val < win0_4.index ⟨(i 1).val / 4096, hlt⟩ (1 : Fin 3) * 4096 + 4096; omega
  | ⟨2, _⟩ => show win0_4.index ⟨(i 1).val / 4096, hlt⟩ (2 : Fin 3) * 128 ≤ (i 2).val ∧ (i 2).val < win0_4.index ⟨(i 1).val / 4096, hlt⟩ (2 : Fin 3) * 128 + 128; omega

/-- The result array after the sweep is the step on the whole batch. -/
theorem final (c : Dev nD) : (sweep m 0 c).arrAt 4 cfg0.N = stepped m c :=
  (sweep m 0 c).arrAt_eq_of_cover 4 (stepped m c) (fun t _ => flushed_eq m c t) covered

/-! ## The weight matrices the sweep finds -/

/-- The four input-side weight matrices side by side, and the four recurrent ones, of the launch contents. -/
abbrev sideW (c : Dev nD) : S128x512.Idx → EReal :=
  concatenate S128x512 1 [⟨S128x128, m ((c : Thread nD τ).loc main_arg2)⟩, ⟨S128x128, m ((c : Thread nD τ).loc main_arg3)⟩, ⟨S128x128, m ((c : Thread nD τ).loc main_arg4)⟩, ⟨S128x128, m ((c : Thread nD τ).loc main_arg5)⟩] concatenates_S128x128_S128x128_S128x128_S128x128_S128x512_d1
abbrev sideU (c : Dev nD) : S128x512.Idx → EReal :=
  concatenate S128x512 1 [⟨S128x128, m ((c : Thread nD τ).loc main_arg6)⟩, ⟨S128x128, m ((c : Thread nD τ).loc main_arg7)⟩, ⟨S128x128, m ((c : Thread nD τ).loc main_arg8)⟩, ⟨S128x128, m ((c : Thread nD τ).loc main_arg9)⟩] concatenates_S128x128_S128x128_S128x128_S128x128_S128x512_d1

/-- Narrowing changes no value over the extended reals, so the sweep finds exactly those two matrices. -/
theorem entry_W (c : Dev nD) : (atEntry m c main_v1 : S128x512.Idx → EReal) = sideW m c := by
  have e : (atEntry m c main_v1 : S128x512.Idx → EReal) = truncf (F := Ideal) .bf16 (sideW m c) bitsLt_bf16_f32 := by
    dsimp only [atEntry, hostOps0]; after_results; rfl
  exact e
theorem entry_U (c : Dev nD) : (atEntry m c main_v3 : S128x512.Idx → EReal) = sideU m c := by
  have e : (atEntry m c main_v3 : S128x512.Idx → EReal) = truncf (F := Ideal) .bf16 (sideU m c) bitsLt_bf16_f32 := by
    dsimp only [atEntry, hostOps0]; after_results; rfl
  exact e

/-! ## The run -/

/-- Every fair execution of the idealized kernel's program terminates without a fault, with its result array at one step
    of the cell on the launch contents and its ten argument arrays unchanged. -/
theorem run : θ_run defs (onTc (τ := τ) (main (F := Ideal))) ⟨m, fun _ => 0, ρ⟩ fun r => ∀ c : Dev nD,
      r.2.mem ((c.tc : Thread nD τ).loc main_v4)
        = Cell.step (m ((c.tc : Thread nD τ).loc main_arg0)) (m ((c.tc : Thread nD τ).loc main_arg1)) (sideW m c) (sideU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 4).trans ((final m c).trans (by unfold stepped; rw [entry_W, entry_U])), args_of_post m r h c⟩)
    (whole_run m ρ)

end Cert.KernelIdeal.Stepped

end
-- ==== Proof.LibLogisticForm.lean ====
/-
  The logistic function written as a quotient, over the extended reals.

  A program may apply the logistic function as one operation or spell it `1 / (1 + e^(-z))` with the 32-bit pattern of
  the number one, a negation, an exponential, a sum and a quotient. Over the extended reals the two are the same function:
  the pattern `0x3F800000` denotes one, and the logistic function is defined as that quotient, with the conventions
  `e^(-∞) = 0` and `1 / ∞ = 0` giving the limits `1` at `+∞` and `0` at `-∞`.
-/
import Idealize.ShloMosaic.PureOps.Ideal

noncomputable section

namespace Idealize.ShloMosaic.LogisticForm

open Idealize.ShloMosaic

/-- The bit pattern `0x3F800000` of the 32-bit format denotes the number one. -/
theorem one_f32 : Ideal.ofBits .f32 0x3F800000#32 = 1 := by
  simp [Ideal.ofBits, Ideal.ieee, -EReal.coe_mul]; norm_num

/-- One over one plus the exponential of the negation, in the host's operations and with the number one given by its
    32-bit pattern, is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, one_f32]
  rfl

end Idealize.ShloMosaic.LogisticForm

end
-- ==== Proof.RefStep.lean ====
/-
  The reference program's result is one step of the cell of Cell.lean.

  The reference slices the stacked state into its hidden slab h and its cell slab c, forms the 512 pre-activations of each
  row as x · W + h · U (two contractions over 128 terms and an entrywise sum), cuts them into the four gate groups, applies
  the logistic function (spelt 1 / (1 + e^(-z))) to three of them and tanh to the fourth, and combines them entry by entry
  into the new cell state c' = σ(f) · c + σ(i) · tanh(g) and the new hidden state h' = σ(o) · tanh(c'), which it stacks
  again. Below, each stage is read at an index (r, j) and identified with the corresponding function of Cell.lean.
-/
import proofs.«167001_j5471788335349_2_alg».proof.Proof.Gen.ReferenceIdeal.Read
import proofs.«167001_j5471788335349_2_alg».proof.Proof.Cell
import proofs.«167001_j5471788335349_2_alg».proof.Proof.LibLogisticForm

noncomputable section

open scoped BigOperators

namespace Cert.RefStep

open Cert.ReferenceIdeal Cert.ReferenceIdeal.Gen Cert.ReferenceIdeal.Read Idealize.ShloMosaic Idealize.ShloMosaic.ValueIdx
open Idealize.ShloMosaic.LogisticForm

/-! ## The index functions of the layout stages, at an index given by its coordinates -/

/-- The hidden slab, flattened to rows: entry (r, k) is entry (0, r, k) of the stack. -/
theorem idx_hidden (r : Fin 131072) (k : Fin 128) : idx_main_v0 (idx_main_v1 (ix2 r k)) = ix3 (0 : Fin 2) r k :=
  funext fun a => Fin.ext (by
    have hr : r.val < 131072 := r.isLt
    have hk : k.val < 128 := k.isLt
    match a with
    | ⟨0, _⟩ => rfl
    | ⟨1, _⟩ => show (r.val * 128 + k.val) / 128 % 131072 = r.val; omega
    | ⟨2, _⟩ => show (r.val * 128 + k.val) % 128 = k.val; omega)

/-- The cell slab, flattened to rows: entry (r, k) is entry (1, r, k) of the stack. -/
theorem idx_cell (r : Fin 131072) (k : Fin 128) : idx_main_v2 (idx_main_v3 (ix2 r k)) = ix3 (1 : Fin 2) r k :=
  funext fun a => Fin.ext (by
    have hr : r.val < 131072 := r.isLt
    have hk : k.val < 128 := k.isLt
    match a with
    | ⟨0, _⟩ => rfl
    | ⟨1, _⟩ => show (r.val * 128 + k.val) / 128 % 131072 = r.val; omega
    | ⟨2, _⟩ => show (r.val * 128 + k.val) % 128 = k.val; omega)

section
variable (x0 : (⟨S2x131072x128, .f32⟩ : BufTy).Contents (Elt Ideal)) (x1 : (⟨S131072x128, .f32⟩ : BufTy).Contents (Elt Ideal))
  (x2 x3 x4 x5 x6 x7 x8 x9 : (⟨S128x128, .f32⟩ : BufTy).Contents (Elt Ideal))

/-- The hidden state read by rows. -/
theorem hidden_apply (r : Fin 131072) (k : Fin 128) : val_main_v1 (F := Ideal) x0 (ix2 r k) = x0 (ix3 (0 : Fin 2) r k) := by
  rw [val_main_v1_apply, val_main_v0_apply, idx_hidden]

/-- The cell state read by rows. -/
theorem cell_apply (r : Fin 131072) (k : Fin 128) : val_main_v3 (F := Ideal) x0 (ix2 r k) = x0 (ix3 (1 : Fin 2) r k) := by
  rw [val_main_v3_apply, val_main_v2_apply, idx_cell]

/-- The pre-activations: row r of the input against column n of the first weight matrix plus row r of the hidden state
    against column n of the second. -/
theorem pre_apply (r : Fin 131072) (n : Fin 512) :
    val_main_v8 (F := Ideal) x0 x1 x2 x3 x4 x5 x6 x7 x8 x9 (ix2 r n)
      = Cert.Cell.pre (fun k => x1 (ix2 r k)) (fun k => x0 (ix3 (0 : Fin 2) r k))
          (val_main_v4 (F := Ideal) x2 x3 x4 x5) (val_main_v5 (F := Ideal) x6 x7 x8 x9) n := by
  rw [val_main_v8_apply, val_main_v6_apply, val_main_v7_apply]
  generalize val_main_v4 (F := Ideal) x2 x3 x4 x5 = W
  generalize val_main_v5 (F := Ideal) x6 x7 x8 x9 = U
  unfold Cert.Cell.pre
  refine congrArg₂ (· + ·) (Finset.sum_congr rfl fun k _ => ?_) (Finset.sum_congr rfl fun k _ => ?_)
  · have e1 : lidx_main_v6 (ix2 r n) k = ix2 r k := funext fun a => by
      match a with
      | ⟨0, _⟩ => rfl
      | ⟨1, _⟩ => rfl
    have e2 : ridx_main_v6 (ix2 r n) k = ix2 k n := funext fun a => by
      match a with
      | ⟨0, _⟩ => rfl
      | ⟨1, _⟩ => rfl
    rw [e1, e2]
  · have e1 : lidx_main_v7 (ix2 r n) k = ix2 r k := funext fun a => by
      match a with
      | ⟨0, _⟩ => rfl
      | ⟨1, _⟩ => rfl
    have e2 : ridx_main_v7 (ix2 r n) k = ix2 k n := funext fun a => by
      match a with
      | ⟨0, _⟩ => rfl
      | ⟨1, _⟩ => rfl
    rw [e1, e2, hidden_apply]

/-! ## The four gate groups -/

/-- The input gate's group is columns 0 to 127 of the pre-activations. -/
theorem gateI_apply (r : Fin 131072) (j : Fin 128) :
    val_main_v9 (F := Ideal) x0 x1 x2 x3 x4 x5 x6 x7 x8 x9 (ix2 r j) = val_main_v8 (F := Ideal) x0 x1 x2 x3 x4 x5 x6 x7 x8 x9 (ix2 r (Cert.Cell.colI j)) := by
  rw [val_main_v9_apply]
  exact congrArg _ (funext fun a => by
    match a with
    | ⟨0, _⟩ => rfl
    | ⟨1, _⟩ => rfl)

/-- The forget gate's group is columns 128 to 255. -/
theorem gateF_apply (r : Fin 131072) (j : Fin 128) :
    val_main_v10 (F := Ideal) x0 x1 x2 x3 x4 x5 x6 x7 x8 x9 (ix2 r j) = val_main_v8 (F := Ideal) x0 x1 x2 x3 x4 x5 x6 x7 x8 x9 (ix2 r (Cert.Cell.colF j)) := by
  rw [val_main_v10_apply]
  exact congrArg _ (funext fun a => by
    match a with
    | ⟨0, _⟩ => rfl
    | ⟨1, _⟩ => rfl)

/-- The output gate's group is columns 256 to 383. -/
theorem gateO_apply (r : Fin 131072) (j : Fin 128) :
    val_main_v11 (F := Ideal) x0 x1 x2 x3 x4 x5 x6 x7 x8 x9 (ix2 r j) = val_main_v8 (F := Ideal) x0 x1 x2 x3 x4 x5 x6 x7 x8 x9 (ix2 r (Cert.Cell.colO j)) := by
  rw [val_main_v11_apply]
  exact congrArg _ (funext fun a => by
    match a with
    | ⟨0, _⟩ => rfl
    | ⟨1, _⟩ => rfl)

/-- The candidate's group is columns 384 to 511. -/
theorem gateG_apply (r : Fin 131072) (j : Fin 128) :
    val_main_v12 (F := Ideal) x0 x1 x2 x3 x4 x5 x6 x7 x8 x9 (ix2 r j) = val_main_v8 (F := Ideal) x0 x1 x2 x3 x4 x5 x6 x7 x8 x9 (ix2 r (Cert.Cell.colG j)) := by
  rw [val_main_v12_apply]
  exact congrArg _ (funext fun a => by
    match a with
    | ⟨0, _⟩ => rfl
    | ⟨1, _⟩ => rfl)

/-! ## The three gates: the logistic function, spelt as a quotient (LibLogisticForm.lean) -/

theorem sigI_apply (i : S131072x128.Idx) :
    val_main_v18 (F := Ideal) x0 x1 x2 x3 x4 x5 x6 x7 x8 x9 i = Ideal.logistic (val_main_v9 (F := Ideal) x0 x1 x2 x3 x4 x5 x6 x7 x8 x9 i) := by
  rw [val_main_v18_apply, val_main_v17_apply, val_main_cst_0_apply, val_main_v16_apply, val_main_v15_apply, val_main_cst_apply,
    val_main_v14_apply, val_main_v13_apply]
  exact logistic_spelt _

theorem sigF_apply (i : S131072x128.Idx) :
    val_main_v24 (F := Ideal) x0 x1 x2 x3 x4 x5 x6 x7 x8 x9 i = Ideal.logistic (val_main_v10 (F := Ideal) x0 x1 x2 x3 x4 x5 x6 x7 x8 x9 i) := by
  rw [val_main_v24_apply, val_main_v23_apply, val_main_cst_2_apply, val_main_v22_apply, val_main_v21_apply, val_main_cst_1_apply,
    val_main_v20_apply, val_main_v19_apply]
  exact logistic_spelt _

theorem sigO_apply (i : S131072x128.Idx) :
    val_main_v30 (F := Ideal) x0 x1 x2 x3 x4 x5 x6 x7 x8 x9 i = Ideal.logistic (val_main_v11 (F := Ideal) x0 x1 x2 x3 x4 x5 x6 x7 x8 x9 i) := by
  rw [val_main_v30_apply, val_main_v29_apply, val_main_cst_4_apply, val_main_v28_apply, val_main_v27_apply, val_main_cst_3_apply,
    val_main_v26_apply, val_main_v25_apply]
  exact logistic_spelt _

/-! ## The new cell state and the new hidden state -/

/-- The new cell state at (r, j). -/
theorem newC_apply (r : Fin 131072) (j : Fin 128) :
    val_main_v34 (F := Ideal) x0 x1 x2 x3 x4 x5 x6 x7 x8 x9 (ix2 r j)
      = Cert.Cell.newC (fun k => x1 (ix2 r k)) (fun k => x0 (ix3 (0 : Fin 2) r k)) (x0 (ix3 (1 : Fin 2) r j))
          (val_main_v4 (F := Ideal) x2 x3 x4 x5) (val_main_v5 (F := Ideal) x6 x7 x8 x9) j := by
  rw [val_main_v34_apply, val_main_v32_apply, val_main_v33_apply, val_main_v31_apply, sigF_apply, sigI_apply, cell_apply,
    gateF_apply, gateI_apply, gateG_apply, pre_apply, pre_apply, pre_apply]
  rfl

/-- The new hidden state at (r, j). -/
theorem newH_apply (r : Fin 131072) (j : Fin 128) :
    val_main_v36 (F := Ideal) x0 x1 x2 x3 x4 x5 x6 x7 x8 x9 (ix2 r j)
      = Cert.Cell.newH (fun k => x1 (ix2 r k)) (fun k => x0 (ix3 (0 : Fin 2) r k)) (x0 (ix3 (1 : Fin 2) r j))
          (val_main_v4 (F := Ideal) x2 x3 x4 x5) (val_main_v5 (F := Ideal) x6 x7 x8 x9) j := by
  rw [val_main_v36_apply, val_main_v35_apply, sigO_apply, gateO_apply, pre_apply, newC_apply]
  rfl

/-! ## The stack of the two results -/

/-- Slab 0 of the result is the new hidden state. -/
theorem slab0_apply (r : Fin 131072) (j : Fin 128) :
    val_main_v39 (F := Ideal) x0 x1 x2 x3 x4 x5 x6 x7 x8 x9 (ix3 (0 : Fin 2) r j) = val_main_v36 (F := Ideal) x0 x1 x2 x3 x4 x5 x6 x7 x8 x9 (ix2 r j) := by
  unfold val_main_v39
  refine (concatenate_pair_apply_left (t := S2x131072x128) (s₁ := S1x131072x128) (s₂ := S1x131072x128) (0 : Fin 3) _ _ _ (ix3 (0 : Fin 2) r j) rfl (ix3 (0 : Fin 1) r j) ?_).trans ?_
  · intro b
    match b with
    | ⟨0, _⟩ => rfl
    | ⟨1, _⟩ => rfl
    | ⟨2, _⟩ => rfl
  · rw [val_main_v37_apply]
    exact congrArg _ (funext fun a => by
      match a with
      | ⟨0, _⟩ => rfl
      | ⟨1, _⟩ => rfl)

/-- Slab 1 of the result is the new cell state. -/
theorem slab1_apply (r : Fin 131072) (j : Fin 128) :
    val_main_v39 (F := Ideal) x0 x1 x2 x3 x4 x5 x6 x7 x8 x9 (ix3 (1 : Fin 2) r j) = val_main_v34 (F := Ideal) x0 x1 x2 x3 x4 x5 x6 x7 x8 x9 (ix2 r j) := by
  unfold val_main_v39
  refine (concatenate_pair_apply_right (t := S2x131072x128) (s₁ := S1x131072x128) (s₂ := S1x131072x128) (0 : Fin 3) _ _ _ (ix3 (1 : Fin 2) r j) rfl rfl (ix3 (0 : Fin 1) r j) ?_ ?_).trans ?_
  · intro b hb
    match b, hb with
    | ⟨0, _⟩, hb => exact absurd rfl hb
    | ⟨1, _⟩, _ => rfl
    | ⟨2, _⟩, _ => rfl
  · rfl
  · rw [val_main_v38_apply]
    exact congrArg _ (funext fun a => by
      match a with
      | ⟨0, _⟩ => rfl
      | ⟨1, _⟩ => rfl)

end

/-- The reference program computes one step of the cell on the whole batch. -/
theorem ref_eq_step
    (x0 : (⟨S2x131072x128, .f32⟩ : BufTy).Contents (Elt Ideal)) (x1 : (⟨S131072x128, .f32⟩ : BufTy).Contents (Elt Ideal))
    (x2 x3 x4 x5 x6 x7 x8 x9 : (⟨S128x128, .f32⟩ : BufTy).Contents (Elt Ideal)) :
    val_main_v39 (F := Ideal) x0 x1 x2 x3 x4 x5 x6 x7 x8 x9
      = Cert.Cell.step x0 x1 (val_main_v4 (F := Ideal) x2 x3 x4 x5) (val_main_v5 (F := Ideal) x6 x7 x8 x9) := by
  funext i
  obtain ⟨s, r, j, rfl⟩ : ∃ (s : Fin 2) (r : Fin 131072) (j : Fin 128), i = ix3 s r j := ⟨i 0, i 1, i 2, eq_ix3 i⟩
  obtain ⟨s, hs⟩ := s
  match s, hs with
  | 0, _ => exact (slab0_apply x0 x1 x2 x3 x4 x5 x6 x7 x8 x9 r j).trans ((newH_apply x0 x1 x2 x3 x4 x5 x6 x7 x8 x9 r j).trans (Cert.Cell.step_hidden _ _ _ _ r j).symm)
  | 1, _ => exact (slab1_apply x0 x1 x2 x3 x4 x5 x6 x7 x8 x9 r j).trans ((newC_apply x0 x1 x2 x3 x4 x5 x6 x7 x8 x9 r j).trans (Cert.Cell.step_cell _ _ _ _ r j).symm)

end Cert.RefStep

end
-- ==== Proof.lean ====
/-
  The kernel against its reference: one step of a long short-term memory cell on a batch of 131072 rows.

  Both programs take the stacked hidden and cell state, the input, four input-side and four recurrent `128 × 128` weight
  matrices. Both lay the four input-side matrices side by side into `W` and the four recurrent ones into `U`, form the
  pre-activations `x · W + h · U`, and combine the four gate groups into the new cell state
  `c' = σ(f) · c + σ(i) · tanh(g)` and the new hidden state `h' = σ(o) · tanh(c')`, returned stacked. The kernel does this
  in 32 blocks of 4096 rows, narrowing the matrices it multiplies and applying the logistic function as one operation; the
  reference does it on the whole batch and spells the logistic function `1 / (1 + e^(-z))`. Over the extended reals
  narrowing changes no value, a product into a zero accumulator is the contraction itself, and the one operation is that
  quotient by definition, so both results are the function `Cell.step` (Cell.lean) of the same arguments: the kernel's by
  KernelStep.lean (each block through BlockStep.lean, the blocks tiling the result), the reference's by RefStep.lean.
  No finiteness of the inputs is used.

  Each program runs to its end, faults nowhere and leaves its arguments unchanged: the two kernel programs by
  FrameBits.lean and FrameIdeal.lean, the reference by its run read back. The idealized kernel is the kernel's own text
  read over the extended reals: nothing was rewritten, so there is nothing to preserve.
-/
import proofs.«167001_j5471788335349_2_alg».proof.Defs
import proofs.«167001_j5471788335349_2_alg».proof.Proof.Gen.Kernel
import proofs.«167001_j5471788335349_2_alg».proof.Proof.Gen.KernelIdeal
import proofs.«167001_j5471788335349_2_alg».proof.Proof.Gen.ReferenceIdeal
import proofs.«167001_j5471788335349_2_alg».proof.Proof.Gen.Pre_finite_inputs
import proofs.«167001_j5471788335349_2_alg».proof.Proof.Gen.ReferenceIdeal.Read
import proofs.«167001_j5471788335349_2_alg».proof.Proof.FrameBits
import proofs.«167001_j5471788335349_2_alg».proof.Proof.KernelStep
import proofs.«167001_j5471788335349_2_alg».proof.Proof.RefStep
import Idealize.ShloMosaic.Adequacy
import Idealize.ShloMosaic.Init

noncomputable section

namespace Cert.Proof

open Idealize.ShloMosaic Idealize.ShloMosaic.TcCoe Idealize.SL.Sem

/-- The kernel as printed runs to its end and leaves its arguments unchanged. -/
theorem frame_bits : Cert.frame_Kernel := fun m ρ _ => Cert.Kernel.FrameRun.frame m ρ

/-- So does its reading over the extended reals. -/
theorem frame_ideal : Cert.frame_KernelIdeal := fun m ρ _ => Cert.KernelIdeal.FrameRun.frame m ρ

/-- So does the reference: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories agreeing on the arguments both programs end with the same result: `Cell.step` of the state, the input
    and the two weight matrices laid side by side. -/
theorem algebraic : Cert.algebraic_KernelIdeal_ReferenceIdeal := by
  intro m ρ m' ρ' _ hagree
  refine ⟨fun c => Cert.Cell.step (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.KernelIdeal.Stepped.sideW m c) (Cert.KernelIdeal.Stepped.sideU m c),
    Cert.KernelIdeal.Stepped.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.RefStep.ref_eq_step]
  obtain ⟨e0, e1, e2, e3, e4, e5, e6, e7, e8, e9⟩ := hagree c
  rw [e0, e1, e2, e3, e4, e5, e6, e7, e8, e9]
  rfl

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
